-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S256x128 .f32) (main_arg2 : FVec F S1600000 .f32) (main_arg3 : IVec S1600000 32) (main_arg4 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩

abbrev nBuf : Space → Nat
  | .hbm => 50
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x1, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainMatmul.lean ====
/-
  A plain matrix product read at an index, at the ideal values.

  For the dimension numbers of an `M x K` by `K x N` product (contract the left operand's axis 1 with the right
  operand's axis 0, no batch axis), a product accumulated into the zero splat is, at row `r` and column `q`, the
  sum over `k : Fin K` of `a (r, k) * b (k, q)` on the extended reals: no rounding, no chunk order, and the
  contraction index is just its one coordinate.
-/
import Idealize.ShloMosaic.Lib.ValueIdx
import Idealize.ShloMosaic.PureOps.Ideal.Laws

namespace PlainMatmul

open Idealize.ShloMosaic Idealize.ShloMosaic.ValueIdx

variable {M K N : ℕ}

/-- The contraction index of a plain product is one coordinate below `K`. -/
noncomputable def kEquiv (M K N : ℕ) : (DotDims.plain M K N).contr.Idx ≃ Fin K :=
  contrEquiv1 (DotDims.plain M K N) K rfl rfl

/-- The left operand is read at (row, contraction coordinate). -/
theorem lhsIdx_plain (r : Fin M) (q : Fin N) (k : Fin K) :
    (DotDims.plain M K N).lhsIdx (ix2 r q) ((kEquiv M K N).symm k) = ix2 r k := by
  funext ax
  apply Fin.ext
  match ax with
  | ⟨0, _⟩ => rfl
  | ⟨1, _⟩ =>
    exact ((DotDims.plain M K N).lhsIdx_val_of_single (cl := 1) rfl (ix2 r q) ((kEquiv M K N).symm k)).trans
      (contrEquiv1_symm_val (DotDims.plain M K N) K rfl rfl k)

/-- The right operand is read at (contraction coordinate, column). -/
theorem rhsIdx_plain (r : Fin M) (q : Fin N) (k : Fin K) :
    (DotDims.plain M K N).rhsIdx (ix2 r q) ((kEquiv M K N).symm k) = ix2 k q := by
  funext ax
  apply Fin.ext
  match ax with
  | ⟨0, _⟩ =>
    exact ((DotDims.plain M K N).rhsIdx_val_of_single (cr := 0) rfl (ix2 r q) ((kEquiv M K N).symm k)).trans
      (contrEquiv1_symm_val (DotDims.plain M K N) K rfl rfl k)
  | ⟨1, _⟩ => rfl

/-- A plain product into the zero splat, at an index. -/
theorem matmul_zero_apply {φ₁ φ₂ : FTy} (prec : Option ContractPrecision)
    (a : FVec Ideal ⟨2, ![M, K]⟩ φ₁) (b : FVec Ideal ⟨2, ![K, N]⟩ φ₂) (r : Fin M) (q : Fin N) :
    FloatOps.matmul (DotDims.plain M K N) prec a b (constant ⟨2, ![M, N]⟩ .f32 0x00000000#32) (ix2 r q)
      = ∑ k : Fin K, a (ix2 r k) * b (ix2 k q) := by
  rw [Ideal.matmul_constant_zero_apply]
  rw [← Equiv.sum_comp (kEquiv M K N).symm]
  refine Finset.sum_congr rfl fun k _ => ?_
  rw [lhsIdx_plain, rhsIdx_plain]

end PlainMatmul
-- ==== Proof.HiddenBlock.lean ====
/-
  One block of the hidden layer, read at an entry.

  At a grid point the body loads a 4000 x 256 block `a` of node features, the whole 256 x 128 weight matrix `w` and a
  4000 x 1 column `s` of per-node scales, and stores `tanh ((a * s) @ w)`: the column is repeated along the feature
  axis, the product is rounded to a 16-bit format (no change on the extended reals), and the matrix product is
  accumulated into zero. So the stored block at row `p`, column `q` is
  `tanh (Σ k < 256, (a[p,k] * s[p,0]) * w[k,q])`.
-/
import proofs.«180213_j61083024883832_1_alg».proof.Proof.Gen.KernelIdeal.Skeleton
import proofs.«180213_j61083024883832_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.HiddenBlock

open Idealize.ShloMosaic Idealize.ShloMosaic.ValueIdx Cert.KernelIdeal Cert.KernelIdeal.Gen

/-- The product's dimension numbers are those of a plain 4000 x 256 by 256 x 128 product. -/
theorem dot_eq_plain : dot_S4000x256_S256x128_S4000x128_1_0_0_1_n_n = DotDims.plain 4000 256 128 := rfl

/-- The scale column repeated along the 256 features, read at (row, feature): the column's entry of that row. -/
theorem scale_bcast_apply (s : Vec Ideal S4000x1 .f32) (p : Fin 4000) (k : Fin 256) :
    broadcastTo S4000x256 (shapeCast S4000x1 s Facts₀.shapeCasts_S4000x1_S4000x1) Facts₀.broadcasts_S4000x1_S4000x256 (ix2 p k)
      = s (ix2 p 0) := by
  rw [shapeCast_self]
  exact broadcastTo_apply s Facts₀.broadcasts_S4000x1_S4000x256 (ix2 p k) (ix2 p 0) (fun a => by
    match a with
    | ⟨0, _⟩ => show p.val = if (4000 : Nat) = 1 then 0 else p.val; rw [if_neg (by decide)]
    | ⟨1, _⟩ => show (0 : Nat) = if (1 : Nat) = 1 then 0 else k.val; rw [if_pos rfl])

/-- The stored block at an entry. -/
theorem pay_apply (a : Vec Ideal S4000x256 .f32) (s : Vec Ideal S4000x1 .f32) (w : Vec Ideal S256x128 .f32)
    (p : Fin 4000) (q : Fin 128) :
    k0_pay1 a s w (ix2 p q) = Ideal.tanh (∑ k : Fin 256, (a (ix2 p k) * s (ix2 p 0)) * w (ix2 k q)) := by
  unfold k0_pay1
  show Ideal.tanh (FloatOps.matmul (F := Ideal) dot_S4000x256_S256x128_S4000x128_1_0_0_1_n_n none _ _ (constant (F := Ideal) S4000x128 .f32 0x00000000#32) (ix2 p q)) = _
  rw [dot_eq_plain]
  refine congrArg Ideal.tanh ?_
  refine (PlainMatmul.matmul_zero_apply none _ _ p q).trans ?_
  refine Finset.sum_congr rfl fun k _ => ?_
  show (a (ix2 p k) * _) * w (ix2 k q) = _
  rw [scale_bcast_apply]

end Cert.KernelIdeal.HiddenBlock

end
-- ==== Proof.Layer.lean ====
/-
  The graph-convolution layer as three functions of whole arrays, at the ideal values.

  * `invSqrtDegree idx`: for each of the 100000 nodes, the number of the 1600000 edges whose endpoint list `idx` names
    it, raised to at least 1, to the power -1/2.
  * `hidden x w s`: `tanh ((x * s) @ w)`, row `r` of the 100000 x 256 features scaled by the column entry `s[r,0]`
    before the 256 x 128 weights; entry (r, q) is `tanh (Σ k < 256, (x[r,k] * s[r,0]) * w[k,q])`.
  * `aggregate h ew src dst`: every edge `e` carries `h[src e] * ew e` (the source index wrapped once when negative)
    and adds it into row `dst e`; the sums are scaled row by row by `invSqrtDegree dst`.

  Both programs compute `aggregate (hidden feat weight (column of invSqrtDegree src)) ew src dst`; they differ only
  in how the hidden layer is evaluated. `aggregate` is therefore never opened: it is carried as one function.
-/
import proofs.«180213_j61083024883832_1_alg».proof.Proof.Gen.ReferenceIdeal
import Idealize.ShloMosaic.Lib.ValueIdx
import Idealize.ShloMosaic.Lib.Pipeline.Value
import Idealize.ShloMosaic.PureOps.Ideal

noncomputable section

namespace Cert.Layer

open Idealize.ShloMosaic Idealize.ShloMosaic.ValueIdx Cert.ReferenceIdeal Cert.ReferenceIdeal.Gen

/-- The per-node edge count of an endpoint list, at least 1. -/
def clippedDegree (idx : (⟨S1600000, .i32⟩ : BufTy).Contents (Elt Ideal)) : (⟨S100000, .f32⟩ : BufTy).Contents (Elt Ideal) :=
  maximumf (broadcastInDim S100000 ![] bcast_S_S100000 (id (constant (F := Ideal) S_ .f32 0x3F800000#32)))
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))

/-- That count to the power -1/2. -/
def invSqrtDegree (idx : (⟨S1600000, .i32⟩ : BufTy).Contents (Elt Ideal)) : (⟨S100000, .f32⟩ : BufTy).Contents (Elt Ideal) :=
  Host.powf (F := Ideal) (clippedDegree idx) (broadcastInDim S100000 ![] bcast_S_S100000 (constant (F := Ideal) S_ .f32 0xBF000000#32))

/-- The degree factor written as a 100000 x 1 column. -/
def scaleColumn (idx : (⟨S1600000, .i32⟩ : BufTy).Contents (Elt Ideal)) : (⟨S100000x1, .f32⟩ : BufTy).Contents (Elt Ideal) :=
  broadcastInDim S100000x1 ![0] bcast_S100000_S100000x1_0 (invSqrtDegree idx)

/-- Row `r` of the column is node `r`'s factor. -/
theorem scaleColumn_apply (idx : (⟨S1600000, .i32⟩ : BufTy).Contents (Elt Ideal)) (r : Fin 100000) :
    scaleColumn idx (ix2 r 0) = invSqrtDegree idx (ix1 r) :=
  broadcastInDim_apply _ bcast_S100000_S100000x1_0 (invSqrtDegree idx) (ix2 r 0) (ix1 r) (fun a => match a with
    | ⟨0, _⟩ => by show r.val = if (100000 : Nat) = 1 then 0 else r.val; rw [if_neg (by decide)])

/-- One entry of the hidden layer. -/
def hiddenEntry (x : (⟨S100000x256, .f32⟩ : BufTy).Contents (Elt Ideal)) (w : (⟨S256x128, .f32⟩ : BufTy).Contents (Elt Ideal))
    (s : (⟨S100000x1, .f32⟩ : BufTy).Contents (Elt Ideal)) (r : Fin 100000) (q : Fin 128) : EReal :=
  Ideal.tanh (∑ k : Fin 256, (x (ix2 r k) * s (ix2 r 0)) * w (ix2 k q))

/-- The hidden layer: `tanh ((x * s) @ w)`. -/
def hidden (x : (⟨S100000x256, .f32⟩ : BufTy).Contents (Elt Ideal)) (w : (⟨S256x128, .f32⟩ : BufTy).Contents (Elt Ideal))
    (s : (⟨S100000x1, .f32⟩ : BufTy).Contents (Elt Ideal)) : (⟨S100000x128, .f32⟩ : BufTy).Contents (Elt Ideal) :=
  fun i => hiddenEntry x w s ⟨(i 0).val, idx2_lt0 i⟩ ⟨(i 1).val, idx2_lt1 i⟩

theorem hidden_ix2 (x : (⟨S100000x256, .f32⟩ : BufTy).Contents (Elt Ideal)) (w : (⟨S256x128, .f32⟩ : BufTy).Contents (Elt Ideal))
    (s : (⟨S100000x1, .f32⟩ : BufTy).Contents (Elt Ideal)) (r : Fin 100000) (q : Fin 128) :
    hidden x w s (ix2 r q) = hiddenEntry x w s r q := rfl

/-- The hidden layer reads its scale column at the entries (r, 0) only. -/
theorem hidden_congr (x : (⟨S100000x256, .f32⟩ : BufTy).Contents (Elt Ideal)) (w : (⟨S256x128, .f32⟩ : BufTy).Contents (Elt Ideal))
    (s s' : (⟨S100000x1, .f32⟩ : BufTy).Contents (Elt Ideal)) (h : ∀ r : Fin 100000, s (ix2 r 0) = s' (ix2 r 0)) :
    hidden x w s = hidden x w s' := by
  funext i
  show hiddenEntry x w s _ _ = hiddenEntry x w s' _ _
  unfold hiddenEntry
  refine congrArg Ideal.tanh (Finset.sum_congr rfl fun k _ => ?_)
  rw [h]

/-- Gather the hidden rows along the edges, weight them, add them into the destination rows, scale by the
    destination's degree factor. -/
def aggregate (h : (⟨S100000x128, .f32⟩ : BufTy).Contents (Elt Ideal)) (ew : (⟨S1600000, .f32⟩ : BufTy).Contents (Elt Ideal))
    (src dst : (⟨S1600000, .i32⟩ : BufTy).Contents (Elt Ideal)) : (⟨S100000x128, .f32⟩ : BufTy).Contents (Elt Ideal) :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf
        (Host.gather gather_S100000x128_S1600000x1_S1600000x128_1_0_n_n_0_1_1128 h
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x128 ![0, 1] bcast_S1600000x1_S1600000x128_0_1
          (broadcastInDim S1600000x1 ![0] bcast_S1600000_S1600000x1_0 ew))))
    (broadcastInDim S100000x128 ![0, 1] bcast_S100000x1_S100000x128_0_1
      (broadcastInDim S100000x1 ![0] bcast_S100000_S100000x1_0 (invSqrtDegree dst)))

end Cert.Layer

end
-- ==== Proof.HiddenArray.lean ====
/-
  The hidden layer's array after the region.

  The grid has 25 points; point `t` reads rows `4000 t … 4000 t + 3999` of the features and of the scale column, the
  whole weight matrix, and writes back the same rows of the output. What it writes back is those rows of ONE function
  of the whole arrays, `Layer.hidden`; the 25 row blocks cover all 100000 rows, so the array ends holding that
  function of the arrays the region found.
-/
import proofs.«180213_j61083024883832_1_alg».proof.Proof.Gen.KernelIdeal.Frame
import proofs.«180213_j61083024883832_1_alg».proof.Proof.HiddenBlock
import proofs.«180213_j61083024883832_1_alg».proof.Proof.Layer

set_option maxRecDepth 16384

noncomputable section

namespace Cert.KernelIdeal.HiddenArray

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem off_zero : (![0, 0] : Fin 2 → Nat) = fun _ => 0 := funext fun a => by fin_cases a <;> rfl

/-- The four index maps, decided over the 25 points: features, scales and output move down one row block per point,
    the weights stay. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the feature block at point `t` sits at (4000 t + p, k) of the feature array. -/
theorem feat_emb (t : Fin cfg0.N) (p : Fin 4000) (k : Fin 256) (r : Fin 100000) (hr : r.val = t.val * 4000 + p.val) :
    ((cfg0.win 0).blk t).view.emb (ix2 p k) = ix2 r k := by
  obtain ⟨e0, e1, -⟩ := block_index t
  funext a; apply Fin.ext
  match a with
  | ⟨0, _⟩ => show win0_0.index t (0 : Fin 2) * 4000 + 1 * p.val = r.val; omega
  | ⟨1, _⟩ => show win0_0.index t (1 : Fin 2) * 256 + 1 * k.val = k.val; omega

/-- So any array read through that block, at (p, k), is the array at (4000 t + p, k). -/
theorem read_feat (t : Fin cfg0.N) (A : ((cfg0.win 0).blk t).view.ty.Contents (Elt Ideal)) (p : Fin 4000) (k : Fin 256)
    (r : Fin 100000) (hr : r.val = t.val * 4000 + p.val) :
    ((cfg0.win 0).blk t).view.read (Elt Ideal) A (ix2 p k) = A (ix2 r k) := by
  show A (((cfg0.win 0).blk t).view.emb (ix2 p k)) = _
  rw [feat_emb t p k r hr]

/-- The weight block at every point is the whole weight array: entry (k, q) sits at (k, q). -/
theorem weight_emb (t : Fin cfg0.N) (k : Fin 256) (q : Fin 128) :
    ((cfg0.win 1).blk t).view.emb (ix2 k q) = ix2 k q := by
  obtain ⟨-, -, e2, e3, -⟩ := block_index t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- So any array read through that block is the array itself. -/
theorem read_weight (t : Fin cfg0.N) (A : ((cfg0.win 1).blk t).view.ty.Contents (Elt Ideal)) (k : Fin 256) (q : Fin 128) :
    ((cfg0.win 1).blk t).view.read (Elt Ideal) A (ix2 k q) = A (ix2 k q) := by
  show A (((cfg0.win 1).blk t).view.emb (ix2 k q)) = _
  rw [weight_emb t k q]

/-- Entry (p, 0) of the scale block at point `t` sits at (4000 t + p, 0) of the scale column. -/
theorem scale_emb (t : Fin cfg0.N) (p : Fin 4000) (r : Fin 100000) (hr : r.val = t.val * 4000 + p.val) :
    ((cfg0.win 2).blk t).view.emb (ix2 p 0) = ix2 r 0 := by
  obtain ⟨-, -, -, -, e4, e5, -⟩ := block_index t
  funext a; apply Fin.ext
  match a with
  | ⟨0, _⟩ => show win0_2.index t (0 : Fin 2) * 4000 + 1 * p.val = r.val; omega
  | ⟨1, _⟩ => show win0_2.index t (1 : Fin 2) * 1 + 1 * 0 = 0; omega

/-- So any column read through that block, at row p, is the column at row 4000 t + p. -/
theorem read_scale (t : Fin cfg0.N) (A : ((cfg0.win 2).blk t).view.ty.Contents (Elt Ideal)) (p : Fin 4000)
    (r : Fin 100000) (hr : r.val = t.val * 4000 + p.val) :
    ((cfg0.win 2).blk t).view.read (Elt Ideal) A (ix2 p 0) = A (ix2 r 0) := by
  show A (((cfg0.win 2).blk t).view.emb (ix2 p 0)) = _
  rw [scale_emb t p r hr]

/-- Entry (p, q) of the output block at point `t` sits at (4000 t + p, q) of the output array. -/
theorem out_emb (t : Fin cfg0.N) (p : Fin 4000) (q : Fin 128) (r : Fin 100000) (hr : r.val = t.val * 4000 + p.val) :
    ((cfg0.win 3).blk t).view.emb (ix2 p q) = ix2 r q := by
  obtain ⟨-, -, -, -, -, -, e6, e7⟩ := block_index t
  funext a; apply Fin.ext
  match a with
  | ⟨0, _⟩ => show win0_3.index t (0 : Fin 2) * 4000 + 1 * p.val = r.val; omega
  | ⟨1, _⟩ => show win0_3.index t (1 : Fin 2) * 128 + 1 * q.val = q.val; omega

/-- What point `t` writes back is block `t` of the hidden layer of the arrays as the region finds them. -/
theorem flushed_eq (c : Dev nD) (t : Fin cfg0.N) :
    (dats m 0 c).flushed 3 t
      = ((cfg0.win 3).blk t).view.read (Elt Ideal) (Layer.hidden (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero off_zero]
  simp only [View.ld_unit_zero (S := S4000x256) off_zero, View.ld_unit_zero (S := S4000x1) off_zero,
    View.ld_unit_zero (S := S256x128) off_zero]
  funext j
  obtain ⟨p, q, rfl⟩ : ∃ (p : Fin 4000) (q : Fin 128), j = ix2 p q := ⟨j 0, j 1, eq_ix2 j⟩
  have ht : t.val < 25 := lt_of_lt_of_eq t.isLt N_0
  have hp : p.val < 4000 := p.isLt
  obtain ⟨r, hr⟩ : ∃ r : Fin 100000, r.val = t.val * 4000 + p.val := ⟨⟨t.val * 4000 + p.val, by omega⟩, rfl⟩
  show k0_pay1 (iblk m c 0 t) (iblk m c 2 t) (iblk m c 1 t) (ix2 p q)
    = Layer.hidden (V m c (Pipeline.arrRef spec0 0)) (V m c (Pipeline.arrRef spec0 1)) (V m c (Pipeline.arrRef spec0 2)) (((cfg0.win 3).blk t).view.emb (ix2 p q))
  refine (HiddenBlock.pay_apply (iblk m c 0 t) (iblk m c 2 t) (iblk m c 1 t) p q).trans ?_
  rw [out_emb t p q r hr, Layer.hidden_ix2]
  unfold Layer.hiddenEntry
  refine congrArg Ideal.tanh (Finset.sum_congr rfl fun k _ => ?_)
  unfold iblk
  rw [read_feat t _ p k r hr, read_scale t _ p r hr, read_weight t _ k q]

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12).slice (win0_3.rect t)).set ↔ _
  rw [View.set_slice_whole, Rect.mem_set_unit]
  exact Iff.rfl

/-- Row `r` is written back by point `r / 4000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, e6, e7⟩ := block_index t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- The output array after the region: the hidden layer of the arrays the region found. -/
theorem final (c : Dev nD) :
    (dats m 0 c).arrAt 3 cfg0.N = Layer.hidden (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.HiddenArray

end
-- ==== Proof.LayerRun.lean ====
/-
  The kernel's program, read as the layer's functions.

  Before the region the program computes both degree factors from the edge lists and lays the source factor out as a
  100000 x 1 column; the region fills the hidden layer's array from the features, the weights and that column; after
  the region the program gathers, weights, scatter-adds and scales — the aggregation. Read back, its result is
  `Layer.aggregate (Layer.hidden feat weight (Layer.scaleColumn src)) ew src dst`, and its five arguments end as they
  began.
-/
import proofs.«180213_j61083024883832_1_alg».proof.Proof.HiddenArray

set_option maxRecDepth 16384

noncomputable section

namespace Cert.KernelIdeal.LayerRun

open Idealize.ShloMosaic Idealize.ShloMosaic.TcCoe Idealize.ShloMosaic.ValueIdx Idealize.SL.Sem Idealize.ShloMosaic.StableHlo
open Cert.KernelIdeal Cert.KernelIdeal.Gen

/-- A cast along an equation between a type and itself is the identity. -/
theorem cast_same {α : Sort _} (h : α = α) (a : α) : cast h a = a := (cast_eq h a).trans rfl

variable (m : (ℓ : Loc nD τ sig) → Buf (Elt Ideal) ℓ) (ρ : Dev nD → PrngReg)

/-- The scale column as the region finds it: the source degree factor, one entry per row. -/
theorem scale_eq (c : Dev nD) : (V m c main_v11 : S100000x1.Idx → EReal)
    = shapeCast S100000x1 (Layer.invSqrtDegree (m ((c : Thread nD τ).loc main_arg3))) Facts₀.shapeCasts_S100000_S100000x1 := by
  dsimp only [V, V0]
  simp only [hostOps0, hostOps0_1, hostOps0_2, hostOps0_3, hostOps0_4, List.flatten_cons, List.flatten_nil, List.append_nil,
    List.cons_append, List.nil_append]
  after_results
  funext i
  show (shapeCast S100000x1 _ Facts₀.shapeCasts_S100000_S100000x1 i : EReal) = _
  simp only [TRef.toBuf, TRef.ofBuf, cast_same]
  rfl

/-- The clipped destination degree as the region finds it (the lines after the region read it). -/
theorem deg_eq (c : Dev nD) : (V m c main_v8 : S100000.Idx → EReal) = Layer.clippedDegree (m ((c : Thread nD τ).loc main_arg4)) := by
  dsimp only [V, V0]
  simp only [hostOps0, hostOps0_1, hostOps0_2, hostOps0_3, hostOps0_4, List.flatten_cons, List.flatten_nil, List.append_nil,
    List.cons_append, List.nil_append]
  after_results
  simp only [TRef.toBuf, TRef.ofBuf, cast_same]
  rfl

/-- Row `r` of the column the region stages is node `r`'s source degree factor, as in `Layer.scaleColumn`. -/
theorem scale_entry (c : Dev nD) (r : Fin 100000) :
    V m c (Pipeline.arrRef spec0 2) (ix2 r (0 : Fin 1)) = Layer.scaleColumn (m ((c : Thread nD τ).loc main_arg3)) (ix2 r (0 : Fin 1)) := by
  rw [Layer.scaleColumn_apply]
  have e : V m c (Pipeline.arrRef spec0 2)
      = shapeCast S100000x1 (Layer.invSqrtDegree (m ((c : Thread nD τ).loc main_arg3))) Facts₀.shapeCasts_S100000_S100000x1 := scale_eq m c
  rw [e]
  refine shapeCast_apply _ Facts₀.shapeCasts_S100000_S100000x1 (ix2 r (0 : Fin 1)) (ix1 r) ?_
  rw [Shape.rowMajor_val_one, Shape.rowMajor_val_two]
  show r.val = r.val * 1 + 0
  omega

/-- The hidden layer's array after the region, as a function of the program's arguments. -/
theorem hidden_array (c : Dev nD) :
    (dats m 0 c).arrAt 3 cfg0.N
      = Layer.hidden (m ((c : Thread nD τ).loc main_arg0)) (m ((c : Thread nD τ).loc main_arg1))
          (Layer.scaleColumn (m ((c : Thread nD τ).loc main_arg3))) := by
  have e0 : V m c (Pipeline.arrRef spec0 0) = m ((c : Thread nD τ).loc main_arg0) := V_main_arg0 m c
  have e1 : V m c (Pipeline.arrRef spec0 1) = m ((c : Thread nD τ).loc main_arg1) := V_main_arg1 m c
  rw [HiddenArray.final, e0, e1]
  exact Layer.hidden_congr _ _ _ _ (fun r => scale_entry m c r)

set_option maxHeartbeats 2000000 in
/-- The program's result: the lines after the region applied to the hidden layer's array. -/
theorem result_eq (c : Dev nD) :
    Pipeline.afterTail₀ cfgs (dats m) 0 (V0 m) [hostOps1] c main_v30
      = Layer.aggregate
          (Layer.hidden (m ((c : Thread nD τ).loc main_arg0)) (m ((c : Thread nD τ).loc main_arg1))
            (Layer.scaleColumn (m ((c : Thread nD τ).loc main_arg3))))
          (m ((c : Thread nD τ).loc main_arg2)) (m ((c : Thread nD τ).loc main_arg3)) (m ((c : Thread nD τ).loc main_arg4)) := by
  have h12 : Pipeline.withArrays (cfgs 0).spec c (V0 m c) (fun w => (dats m 0 c).arrAt w (cfgs 0).N) (Proc.devRef .tc main_v12)
      = Layer.hidden (m ((c : Thread nD τ).loc main_arg0)) (m ((c : Thread nD τ).loc main_arg1))
          (Layer.scaleColumn (m ((c : Thread nD τ).loc main_arg3))) :=
    (Pipeline.withArrays_arr spec0 launch0.win.arr_inj c _ _ 3).trans (hidden_array m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by decide)).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by decide)).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by decide)).trans (V_main_arg4 m c)
  have h8 : Pipeline.withArrays (cfgs 0).spec c (V0 m c) (fun w => (dats m 0 c).arrAt w (cfgs 0).N) (Proc.devRef .tc main_v8)
      = Layer.clippedDegree (m ((c : Thread nD τ).loc main_arg4)) :=
    (Pipeline.withArrays_of_ne _ c (V0 m c) _ main_v8 (by decide)).trans (deg_eq m c)
  unfold Pipeline.afterTail₀
  show StableHlo.after hostOps1 _ (Proc.devRef .tc main_v30) = _
  simp only [hostOps1]
  after_results_simp
  rw [h12, h2, h3, h4, h8]
  rfl

/-- The run: every weakly fair execution terminates with the result at the layer of the arguments, the arguments unchanged. -/
theorem run : θ_run defs (onTc (τ := τ) (main (F := Ideal))) ⟨m, fun _ => 0, ρ⟩ (fun r => ∀ c : Dev nD,
      r.2.mem ((c.tc : Thread nD τ).loc main_v30)
        = Layer.aggregate
            (Layer.hidden (m ((c : Thread nD τ).loc main_arg0)) (m ((c : Thread nD τ).loc main_arg1))
              (Layer.scaleColumn (m ((c : Thread nD τ).loc main_arg3))))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v30 (Pipeline.mem_restRefs_of main_v30 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LayerRun

end
-- ==== Proof.RefLayer.lean ====
/-
  The reference, read as the layer's three functions.

  The reference's result is `Layer.aggregate` of its own hidden layer; and its hidden layer — the features times the
  degree factor repeated along the row, then the whole 100000 x 256 by 256 x 128 product, then `tanh` — is, entry
  by entry, `Layer.hidden` of the features, the weights and the degree factor written as a column.
-/
import proofs.«180213_j61083024883832_1_alg».proof.Proof.Gen.ReferenceIdeal.Read
import proofs.«180213_j61083024883832_1_alg».proof.Proof.Layer

noncomputable section

namespace Cert.ReferenceIdeal.RefLayer

open Idealize.ShloMosaic Idealize.ShloMosaic.ValueIdx Cert.ReferenceIdeal Cert.ReferenceIdeal.Gen Cert.ReferenceIdeal.Read

/-- The degree factor as a column is the reference's own stage. -/
theorem scaleColumn_eq (src : (⟨S1600000, .i32⟩ : BufTy).Contents (Elt Ideal)) : val_main_v11 (F := Ideal) src = Layer.scaleColumn src := rfl

theorem lidx_eq (r : Fin 100000) (q : Fin 128) (k : Fin 256) : lidx_main_v14 (ix2 r q) k = ix2 r k :=
  funext fun a => Fin.ext (by match a with | ⟨0, _⟩ => rfl | ⟨1, _⟩ => rfl)

theorem ridx_eq (r : Fin 100000) (q : Fin 128) (k : Fin 256) : ridx_main_v14 (ix2 r q) k = ix2 k q :=
  funext fun a => Fin.ext (by match a with | ⟨0, _⟩ => rfl | ⟨1, _⟩ => rfl)

theorem bidx_eq (r : Fin 100000) (k : Fin 256) : idx_main_v12 (ix2 r k) = ix2 r 0 :=
  funext fun a => Fin.ext (by match a with | ⟨0, _⟩ => rfl | ⟨1, _⟩ => rfl)

/-- The reference's hidden layer is `Layer.hidden`. -/
theorem hidden_eq (x0 : (⟨S100000x256, .f32⟩ : BufTy).Contents (Elt Ideal)) (x1 : (⟨S256x128, .f32⟩ : BufTy).Contents (Elt Ideal))
    (x3 : (⟨S1600000, .i32⟩ : BufTy).Contents (Elt Ideal)) :
    val_main_v15 (F := Ideal) x0 x1 x3 = Layer.hidden x0 x1 (Layer.scaleColumn x3) := by
  funext i
  obtain ⟨r, q, rfl⟩ : ∃ (r : Fin 100000) (q : Fin 128), i = ix2 r q := ⟨i 0, i 1, eq_ix2 i⟩
  rw [Layer.hidden_ix2, val_main_v15_apply, val_main_v14_apply]
  unfold Layer.hiddenEntry
  refine congrArg Ideal.tanh (Finset.sum_congr rfl fun k _ => ?_)
  rw [lidx_eq, ridx_eq, val_main_v13_apply, val_main_v12_apply, bidx_eq, scaleColumn_eq]
  rfl

/-- The reference's result is the aggregation of its hidden layer. -/
theorem result_eq (x0 : (⟨S100000x256, .f32⟩ : BufTy).Contents (Elt Ideal)) (x1 : (⟨S256x128, .f32⟩ : BufTy).Contents (Elt Ideal))
    (x2 : (⟨S1600000, .f32⟩ : BufTy).Contents (Elt Ideal)) (x3 x4 : (⟨S1600000, .i32⟩ : BufTy).Contents (Elt Ideal)) :
    val_main_v33 (F := Ideal) x0 x1 x2 x3 x4 = Layer.aggregate (Layer.hidden x0 x1 (Layer.scaleColumn x3)) x2 x3 x4 := by
  rw [← hidden_eq]
  rfl

end Cert.ReferenceIdeal.RefLayer

end
-- ==== Proof.lean ====
/-
  A graph-convolution layer: both programs compute, from node features `feat` (100000 x 256), weights (256 x 128),
  edge weights and the two endpoint lists of 1600000 edges,

      aggregate (hidden feat weight s) ew src dst,

  where `s[r]` is node `r`'s clipped out-degree to the power -1/2, `hidden = tanh ((feat * s) @ weight)`, and
  `aggregate` gathers the hidden rows along the edges, weights them, adds them into the destination rows and scales
  each row by the clipped in-degree to the power -1/2 (Proof/Layer.lean).

  The two programs differ only in the hidden layer. The kernel evaluates it in 25 row blocks of 4000 nodes, each
  block rounding its operands to a 16-bit format and accumulating the product into zero; on the extended reals the
  rounding is the identity and the accumulated product is the plain sum over the 256 features, so every block is the
  same rows of one whole-array function (Proof/HiddenBlock.lean, Proof/HiddenArray.lean). The reference evaluates the
  whole product at once (Proof/RefLayer.lean). Everything before and after the hidden layer is the same sequence of
  operations in both, so it is carried as one function and never opened (Proof/LayerRun.lean). No law of arithmetic
  beyond this identification is used, so the finiteness of the inputs is not needed.

  The idealization rewrote no operation of the kernel, so nothing is owed for it.
-/
import proofs.«180213_j61083024883832_1_alg».proof.Defs
import proofs.«180213_j61083024883832_1_alg».proof.Proof.Gen.Kernel
import proofs.«180213_j61083024883832_1_alg».proof.Proof.Gen.Kernel.Skeleton
import proofs.«180213_j61083024883832_1_alg».proof.Proof.Gen.Kernel.Launch
import proofs.«180213_j61083024883832_1_alg».proof.Proof.Gen.Kernel.Points
import proofs.«180213_j61083024883832_1_alg».proof.Proof.Gen.Kernel.Frame
import proofs.«180213_j61083024883832_1_alg».proof.Proof.Gen.KernelIdeal
import proofs.«180213_j61083024883832_1_alg».proof.Proof.Gen.KernelIdeal.Skeleton
import proofs.«180213_j61083024883832_1_alg».proof.Proof.Gen.KernelIdeal.Launch
import proofs.«180213_j61083024883832_1_alg».proof.Proof.Gen.KernelIdeal.Points
import proofs.«180213_j61083024883832_1_alg».proof.Proof.Gen.KernelIdeal.Frame
import proofs.«180213_j61083024883832_1_alg».proof.Proof.Gen.ReferenceIdeal
import proofs.«180213_j61083024883832_1_alg».proof.Proof.Gen.ReferenceIdeal.Run
import proofs.«180213_j61083024883832_1_alg».proof.Proof.Gen.ReferenceIdeal.Read
import proofs.«180213_j61083024883832_1_alg».proof.Proof.Gen.Pre_finite_inputs
import proofs.«180213_j61083024883832_1_alg».proof.Proof.LayerRun
import proofs.«180213_j61083024883832_1_alg».proof.Proof.RefLayer
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end at the layer of those arguments. -/
theorem algebraic : Cert.algebraic_KernelIdeal_ReferenceIdeal := by
  intro m ρ m' ρ' _ hagree
  refine ⟨_, Cert.KernelIdeal.LayerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefLayer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
